-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel

variable [Facts]

def fn {F : FTy → Type} [FloatOps F] (main_arg0 : FVec F S32x3x1024x1024 .f32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  main_v3
-- ==== Kernel.lean ====
abbrev S32x3x1024x1024 : Shape := ⟨4, ![32, 3, 1024, 1024]⟩
abbrev S4x1024 : Shape := ⟨2, ![4, 1024]⟩
abbrev S32x3x4x4 : Shape := ⟨4, ![32, 3, 4, 4]⟩
abbrev S1x3x1024x1024 : Shape := ⟨4, ![1, 3, 1024, 1024]⟩
abbrev S1x3x4x4 : Shape := ⟨4, ![1, 3, 4, 4]⟩
abbrev S1x1x1024x1024 : Shape := ⟨4, ![1, 1, 1024, 1024]⟩
abbrev S1024x1024 : Shape := ⟨2, ![1024, 1024]⟩
abbrev S4x4 : Shape := ⟨2, ![4, 4]⟩
abbrev S1x1x4x4 : Shape := ⟨4, ![1, 1, 4, 4]⟩
abbrev S32x3x16 : Shape := ⟨3, ![32, 3, 16]⟩
abbrev S_ : Shape := ⟨0, ![]⟩
abbrev S32x3 : Shape := ⟨2, ![32, 3]⟩
abbrev S32x3x1 : Shape := ⟨3, ![32, 3, 1]⟩
abbrev S32 : Shape := ⟨1, ![32]⟩

abbrev nBuf : Space → Nat
  | .hbm => 43
  | .vmem => 5
  | .smem => 0
  | _ => 0

abbrev bufTy : (tb : Table) → Fin (tcTables nBuf tb) → BufTy
  | .hbm, ⟨0, _⟩ => ⟨S32x3x1024x1024, .f32⟩
  | .hbm, ⟨1, _⟩ => ⟨S4x1024, .f32⟩
  | .hbm, ⟨2, _⟩ => ⟨S32x3x4x4, .f32⟩
  | .hbm, ⟨3, _⟩ => ⟨S32x3x16, .f32⟩
  | .hbm, ⟨4, _⟩ => ⟨S_, .i32⟩
  | .hbm, ⟨5, _⟩ => ⟨S_, .f32⟩
  | .hbm, ⟨6, _⟩ => ⟨S32x3, .f32⟩
  | .hbm, ⟨7, _⟩ => ⟨S32x3x1, .f32⟩
  | .hbm, ⟨8, _⟩ => ⟨S_, .f32⟩
  | .hbm, ⟨9, _⟩ => ⟨S32x3x1, .f32⟩
  | .hbm, ⟨10, _⟩ => ⟨S32x3x1, .f32⟩
  | .hbm, ⟨11, _⟩ => ⟨S32x3x16, .f32⟩
  | .hbm, ⟨12, _⟩ => ⟨S32x3x16, .f32⟩
  | .hbm, ⟨13, _⟩ => ⟨S32x3x16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x3, .f32⟩
  | .hbm, ⟨19, _⟩ => ⟨S32x3, .f32⟩
  | .hbm, ⟨20, _⟩ => ⟨S32x3, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S32x3, .f32⟩
  | .hbm, ⟨26, _⟩ => ⟨S32x3, .f32⟩
  | .hbm, ⟨27, _⟩ => ⟨S32x3, .f32⟩
  | .hbm, ⟨28, _⟩ => ⟨S_, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x3x1024x1024, .f32⟩
  | .local _ .vmem, ⟨1, _⟩ => ⟨S1x3x1024x1024, .f32⟩
  | .local _ .vmem, ⟨2, _⟩ => ⟨S4x1024, .f32⟩
  | .local _ .vmem, ⟨3, _⟩ => ⟨S1x3x4x4, .f32⟩
  | .local _ .vmem, ⟨4, _⟩ => ⟨S1x3x4x4, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_cst_0 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_cst_1 : Ref sig .tc := ⟨.hbm, 15, rfl⟩
abbrev main_call0_call0_v8 : Ref sig .tc := ⟨.hbm, 16, rfl⟩
abbrev main_call0_call0_cst_2 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_call0_cst_3 : Ref sig .tc := ⟨.hbm, 21, rfl⟩
abbrev main_call0_call0_v12 : Ref sig .tc := ⟨.hbm, 22, rfl⟩
abbrev main_call0_call0_cst_4 : Ref sig .tc := ⟨.hbm, 23, rfl⟩
abbrev main_call0_call0_call0_v0 : Ref sig .tc := ⟨.hbm, 24, rfl⟩
abbrev main_call0_call0_call0_v1 : Ref sig .tc := ⟨.hbm, 25, rfl⟩
abbrev main_call0_v0 : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_cst_3 : Ref sig .tc := ⟨.hbm, 36, rfl⟩
abbrev main_v8 : Ref sig .tc := ⟨.hbm, 37, rfl⟩
abbrev main_v9 : Ref sig .tc := ⟨.hbm, 38, rfl⟩
abbrev main_cst_4 : Ref sig .tc := ⟨.hbm, 39, rfl⟩
abbrev main_v10 : Ref sig .tc := ⟨.hbm, 40, rfl⟩
abbrev main_cst_5 : Ref sig .tc := ⟨.hbm, 41, rfl⟩
abbrev main_v11 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x4x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x1024_S4x1024_0_0 : ∀ a, (![0, 0] : Fin 2 → Nat) a + S4x1024.size a ≤ S4x1024.size a
  h_S4x1024 : 0 < S4x1024.numel
  inb_S1x3x1024x1024_S1x1x1024x1024_0_0_0_0 : ∀ a, (![0, 0, 0, 0] : Fin 4 → Nat) a + S1x1x1024x1024.size a ≤ S1x3x1024x1024.size a
  h_S1x1x1024x1024 : 0 < S1x1x1024x1024.numel
  shapeCasts_S1x1x1024x1024_S1024x1024 : S1x1x1024x1024.ShapeCasts S1024x1024
  inb_S1x3x4x4_S1x1x4x4_0_0_0_0 : ∀ a, (![0, 0, 0, 0] : Fin 4 → Nat) a + S1x1x4x4.size a ≤ S1x3x4x4.size a
  h_S1x1x4x4 : 0 < S1x1x4x4.numel
  shapeCasts_S1x1x4x4_S4x4 : S1x1x4x4.ShapeCasts S4x4
  shapeCasts_S4x4_S1x1x4x4 : S4x4.ShapeCasts S1x1x4x4
  inb_S1x3x1024x1024_S1x1x1024x1024_0_1_0_0 : ∀ a, (![0, 1, 0, 0] : Fin 4 → Nat) a + S1x1x1024x1024.size a ≤ S1x3x1024x1024.size a
  inb_S1x3x4x4_S1x1x4x4_0_1_0_0 : ∀ a, (![0, 1, 0, 0] : Fin 4 → Nat) a + S1x1x4x4.size a ≤ S1x3x4x4.size a
  inb_S1x3x1024x1024_S1x1x1024x1024_0_2_0_0 : ∀ a, (![0, 2, 0, 0] : Fin 4 → Nat) a + S1x1x1024x1024.size a ≤ S1x3x1024x1024.size a
  inb_S1x3x4x4_S1x1x4x4_0_2_0_0 : ∀ a, (![0, 2, 0, 0] : Fin 4 → Nat) a + S1x1x4x4.size a ≤ S1x3x4x4.size a
  shapeCasts_S32x3x4x4_S32x3x16 : S32x3x4x4.ShapeCasts S32x3x16
  reducesTo_S32x3x16_S32x3_d2 : S32x3x16.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x16_0_1_2 : S32x3x1.BroadcastsInDim S32x3x16 (![0, 1, 2] : Fin 3 → Fin S32x3x16.rank)
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  reducesTo_S32_S_d0 : S32.ReducesTo [0] S_
  dot_S4x1024_S1024x1024_S4x1024_1_0_0_1_n_n_wf : DotDims.WF S4x1024 S1024x1024 S4x1024 [1] [0] [0] [1] [] []
  dot_S4x1024_S4x1024_S4x4_1_1_0_0_n_n_wf : DotDims.WF S4x1024 S4x1024 S4x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024x1024.size a ≤ S32x3x1024x1024.size a
  hwx0_0 : ∀ i : grid0.Coords, EltTy.bits .f32 = 32 ∨ (Rect.block (s := S32x3x1024x1024) S1x3x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x1024.size a
  hwx0_1 : ∀ i : grid0.Coords, EltTy.bits .f32 = 32 ∨ (Rect.block (s := S4x1024) S4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x4x4.size a ≤ S32x3x4x4.size a
  hwx0_2 : ∀ i : grid0.Coords, EltTy.bits .f32 = 32 ∨ (Rect.block (s := S32x3x4x4) S1x3x4x4.size (cc0_transform_2 i) (hinb0_2 i)).WholeWords (EltTy.packing .f32)

variable [Facts₀]

def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf
def dot_S4x1024_S4x1024_S4x4_1_1_0_0_n_n : DotDims S4x1024 S4x1024 S4x4 where
  lhsContracting := [1]
  rhsContracting := [1]
  lhsNonContracting := [0]
  rhsNonContracting := [0]
  lhsBatch := []
  rhsBatch := []
  wf := dot_S4x1024_S4x1024_S4x4_1_1_0_0_n_n_wf

abbrev win0_0 : Pipeline.Window sig grid0 :=
  Pipeline.Window.ofSpec (Memref.whole main_arg0) S1x3x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S4x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x4x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x1024x1024 : Shape := ⟨4, ![32, 3, 1024, 1024]⟩
abbrev S32x3x4x256x4x256 : Shape := ⟨6, ![32, 3, 4, 256, 4, 256]⟩
abbrev S_ : Shape := ⟨0, ![]⟩
abbrev S32x3x4x4 : Shape := ⟨4, ![32, 3, 4, 4]⟩
abbrev S32x3x16 : Shape := ⟨3, ![32, 3, 16]⟩
abbrev S32x3 : Shape := ⟨2, ![32, 3]⟩
abbrev S32x3x1 : Shape := ⟨3, ![32, 3, 1]⟩
abbrev S32 : Shape := ⟨1, ![32]⟩

abbrev nBuf : Space → Nat
  | .hbm => 47
  | .vmem => 0
  | .smem => 0
  | _ => 0

abbrev bufTy : (tb : Table) → Fin (tcTables nBuf tb) → BufTy
  | .hbm, ⟨0, _⟩ => ⟨S32x3x1024x1024, .f32⟩
  | .hbm, ⟨1, _⟩ => ⟨S32x3x4x256x4x256, .f32⟩
  | .hbm, ⟨2, _⟩ => ⟨S_, .f32⟩
  | .hbm, ⟨3, _⟩ => ⟨S32x3x4x4, .f32⟩
  | .hbm, ⟨4, _⟩ => ⟨S_, .f32⟩
  | .hbm, ⟨5, _⟩ => ⟨S32x3x4x4, .f32⟩
  | .hbm, ⟨6, _⟩ => ⟨S32x3x4x4, .f32⟩
  | .hbm, ⟨7, _⟩ => ⟨S32x3x16, .f32⟩
  | .hbm, ⟨8, _⟩ => ⟨S_, .i32⟩
  | .hbm, ⟨9, _⟩ => ⟨S_, .f32⟩
  | .hbm, ⟨10, _⟩ => ⟨S32x3, .f32⟩
  | .hbm, ⟨11, _⟩ => ⟨S32x3x1, .f32⟩
  | .hbm, ⟨12, _⟩ => ⟨S_, .f32⟩
  | .hbm, ⟨13, _⟩ => ⟨S32x3x1, .f32⟩
  | .hbm, ⟨14, _⟩ => ⟨S32x3x1, .f32⟩
  | .hbm, ⟨15, _⟩ => ⟨S32x3x16, .f32⟩
  | .hbm, ⟨16, _⟩ => ⟨S32x3x16, .f32⟩
  | .hbm, ⟨17, _⟩ => ⟨S32x3x16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x3, .f32⟩
  | .hbm, ⟨23, _⟩ => ⟨S32x3, .f32⟩
  | .hbm, ⟨24, _⟩ => ⟨S32x3, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S32x3, .f32⟩
  | .hbm, ⟨30, _⟩ => ⟨S32x3, .f32⟩
  | .hbm, ⟨31, _⟩ => ⟨S32x3, .f32⟩
  | .hbm, ⟨32, _⟩ => ⟨S_, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_cst_3 : Ref sig .tc := ⟨.hbm, 25, rfl⟩
abbrev main_call0_call0_v12 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_v0 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_cst_2 : Ref sig .tc := ⟨.hbm, 34, rfl⟩
abbrev main_v7 : Ref sig .tc := ⟨.hbm, 35, rfl⟩
abbrev main_v8 : Ref sig .tc := ⟨.hbm, 36, rfl⟩
abbrev main_cst_3 : Ref sig .tc := ⟨.hbm, 37, rfl⟩
abbrev main_v9 : Ref sig .tc := ⟨.hbm, 38, rfl⟩
abbrev main_v10 : Ref sig .tc := ⟨.hbm, 39, rfl⟩
abbrev main_cst_4 : Ref sig .tc := ⟨.hbm, 40, rfl⟩
abbrev main_v11 : Ref sig .tc := ⟨.hbm, 41, rfl⟩
abbrev main_v12 : Ref sig .tc := ⟨.hbm, 42, rfl⟩
abbrev main_cst_5 : Ref sig .tc := ⟨.hbm, 43, rfl⟩
abbrev main_v13 : Ref sig .tc := ⟨.hbm, 44, rfl⟩
abbrev main_cst_6 : Ref sig .tc := ⟨.hbm, 45, rfl⟩
abbrev main_v14 : Ref sig .tc := ⟨.hbm, 46, rfl⟩

abbrev nD : Nat := 1
abbrev τ : Topo := Topo.v7x

variable {F : FTy → Type} [FloatOps F]

class Facts₀ : Prop where
  shapeCasts_S32x3x1024x1024_S32x3x4x256x4x256 : S32x3x1024x1024.ShapeCasts S32x3x4x256x4x256
  reducesTo_S32x3x4x256x4x256_S32x3x4x4_d3_5 : S32x3x4x256x4x256.ReducesTo [3, 5] S32x3x4x4
  h_S_ : 0 < S_.numel
  bcast_S_S32x3x4x4 : S_.BroadcastsInDim S32x3x4x4 (![] : Fin 0 → Fin S32x3x4x4.rank)
  shapeCasts_S32x3x4x4_S32x3x16 : S32x3x4x4.ShapeCasts S32x3x16
  reducesTo_S32x3x16_S32x3_d2 : S32x3x16.ReducesTo [2] S32x3
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x16_0_1_2 : S32x3x1.BroadcastsInDim S32x3x16 (![0, 1, 2] : Fin 3 → Fin S32x3x16.rank)
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.LibPlainDot.lean ====
/-
  A plain matrix product read at an entry.

  A kernel's matrix unit multiplies an [a, k] matrix by a [k, b] matrix into a zero accumulator.  Over the extended
  reals the entry (r, c) of the product is the sum over the k contraction positions of the left entry (r, κ) times the
  right entry (κ, c): the textbook formula, for any contraction record of that plain layout (no batch axis; rows and
  columns kept; the left operand's second axis contracted with the right operand's first).
-/
import Idealize.ShloMosaic.Lib.ValueIdx
import Idealize.ShloMosaic.PureOps.Ideal.Laws

namespace Cert.PlainDot

open Idealize.ShloMosaic Idealize.ShloMosaic.ValueIdx

/-- Two spellings of one axis read the same coordinate. -/
theorem coord_congr {s : Shape} (j : s.Idx) (p q : ℕ) (hp : p < s.rank) (hq : q < s.rank) (h : p = q) :
    (j ⟨p, hp⟩).val = (j ⟨q, hq⟩).val := by subst h; rfl

variable {a k b : ℕ} (D : DotDims ⟨2, ![a, k]⟩ ⟨2, ![k, b]⟩ ⟨2, ![a, b]⟩)

/-- The left operand is read in the result's row. -/
theorem lhs_row (hlb : D.lhsBatch = []) (hln : D.lhsNonContracting = [(0 : Fin 2)])
    (j : (⟨2, ![a, b]⟩ : Shape).Idx) (q : D.contr.Idx) : (D.lhsIdx j q (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand is read in the result's column. -/
theorem rhs_col (hlb : D.lhsBatch = []) (hln : D.lhsNonContracting = [(0 : Fin 2)]) (hrb : D.rhsBatch = [])
    (hrn : D.rhsNonContracting = [(1 : Fin 2)])
    (j : (⟨2, ![a, b]⟩ : Shape).Idx) (q : D.contr.Idx) : (D.rhsIdx j q (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- Entry (r, c) of the product into a zero accumulator is Σ_κ lhs(r, κ) · rhs(κ, c). -/
theorem matmul_zero_apply (hr : D.contr.rank = 1) (hs : D.contr.size ⟨0, by omega⟩ = k)
    (hlb : D.lhsBatch = []) (hln : D.lhsNonContracting = [(0 : Fin 2)]) (hlc : D.lhsContracting = [(1 : Fin 2)])
    (hrb : D.rhsBatch = []) (hrn : D.rhsNonContracting = [(1 : Fin 2)]) (hrc : D.rhsContracting = [(0 : Fin 2)])
    {φ₁ φ₂ : FTy} (prec : Option ContractPrecision)
    (lhs : FVec Ideal ⟨2, ![a, k]⟩ φ₁) (rhs : FVec Ideal ⟨2, ![k, b]⟩ φ₂) (r : Fin a) (c : Fin b) :
    matmul D prec lhs rhs (constant ⟨2, ![a, b]⟩ .f32 0x00000000#32) (ix2 r c) = ∑ κ : Fin k, lhs (ix2 r κ) * rhs (ix2 κ c) := by
  show FloatOps.matmul D prec lhs rhs (constant ⟨2, ![a, b]⟩ .f32 0x00000000#32) (ix2 r c) = _
  rw [Ideal.matmul_constant_zero_apply, ← Equiv.sum_comp (contrEquiv1 D k hr hs).symm]
  refine Finset.sum_congr rfl fun κ _ => ?_
  have hk := contrEquiv1_symm_val D k hr hs κ
  have el : D.lhsIdx (ix2 r c) ((contrEquiv1 D k hr hs).symm κ) = ix2 r κ := funext fun ax => Fin.ext (by
    match ax with
    | ⟨0, _⟩ => exact lhs_row D hlb hln _ _
    | ⟨1, _⟩ => exact (D.lhsIdx_val_of_single hlc _ _).trans hk)
  have er : D.rhsIdx (ix2 r c) ((contrEquiv1 D k hr hs).symm κ) = ix2 κ c := funext fun ax => Fin.ext (by
    match ax with
    | ⟨0, _⟩ => exact (D.rhsIdx_val_of_single hrc _ _).trans hk
    | ⟨1, _⟩ => exact rhs_col D hlb hln hrb hrn _ _)
  rw [el, er]

end Cert.PlainDot
-- ==== Proof.LibCoords.lean ====
/-
  Indices given by coordinates, continued: the column forms of the layout operations (a vector stood up as a column, a
  column spread over many columns), two leading unit axes dropped or added, the index a one-axis reduction of a matrix
  along its rows inserts, and the signed test "a small natural number, as a 32-bit word, is above zero".
-/
import Idealize.ShloMosaic.Lib.ValueLayout
import Idealize.ShloMosaic.PureOps.Ideal.Laws

namespace Cert.LibCoords

open Idealize.ShloMosaic Idealize.ShloMosaic.ValueIdx

variable {α : Type}

/-! ## A vector as a column, and a column spread over the columns -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Two leading unit axes dropped or added -/

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-! ## The index a reduction along the rows inserts -/

/-- Reducing a matrix `[a, b]` along axis 1 into `[a]`: the source index over `n` with coordinate `k` on the
    dropped axis is `(n, k)`. -/
theorem lift_axis1_ix1 {a b : ℕ} (h : (⟨2, ![a, b]⟩ : Shape).Reduces [(1 : Fin 2)] ⟨1, ![a]⟩) (n : Fin a) (k : Fin b) :
    h.lift (ix1 n) k = ix2 n k := by
  funext c
  refine Fin.ext ?_
  match c with
  | ⟨0, _⟩ => rfl
  | ⟨1, _⟩ => rfl

/-! ## A small natural number, as a 32-bit word, against zero -/

/-- For `k` below `2 ^ 31` the signed comparison "the word of `k` is above the zero word" says `0 < k`. -/
theorem cmpi_sgt_ofNat_zero_eq_one (k : ℕ) (hk : k < 2 ^ 31) :
    IntOp.cmpi .sgt (BitVec.ofNat 32 k) 0#32 = 1#1 ↔ 0 < k := by
  unfold IntOp.cmpi
  have hs : (0#32).slt (BitVec.ofNat 32 k) = decide (0 < k) := by
    have hn : (BitVec.ofNat 32 k).toNat = k := by
      rw [BitVec.toNat_ofNat]; exact Nat.mod_eq_of_lt (by omega)
    have h1 : (BitVec.ofNat 32 k).toInt = (k : ℤ) := by
      rw [BitVec.toInt_eq_toNat_of_lt (by rw [hn]; omega), hn]
    rw [BitVec.slt_eq_decide, h1]
    simp
  show BitVec.ofBool ((0#32).slt (BitVec.ofNat 32 k)) = 1#1 ↔ 0 < k
  rw [hs]
  by_cases h : 0 < k <;> simp [h]

end Cert.LibCoords
-- ==== Proof.LibDotNT.lean ====
/-
  A matrix product against a transposed right factor, read at an entry.

  The second product of the pooling multiplies a [a, k] matrix by the TRANSPOSE of a [b, k] matrix into a zero
  accumulator: both operands are contracted along their second axis.  Over the extended reals the entry (r, c) of the
  result is the sum over the k contraction positions of the left entry (r, κ) times the right entry (c, κ), for any
  contraction record of that layout (no batch axis; the rows of both operands kept).
-/
import Idealize.ShloMosaic.Lib.ValueIdx
import Idealize.ShloMosaic.PureOps.Ideal.Laws
import proofs.«121349_j70557722739343_2_alg».proof.Proof.LibPlainDot

namespace Cert.DotNT

open Idealize.ShloMosaic Idealize.ShloMosaic.ValueIdx

variable {a k b : ℕ} (D : DotDims ⟨2, ![a, k]⟩ ⟨2, ![b, k]⟩ ⟨2, ![a, b]⟩)

/-- The left operand is read in the result's row. -/
theorem lhs_row (hlb : D.lhsBatch = []) (hln : D.lhsNonContracting = [(0 : Fin 2)])
    (j : (⟨2, ![a, b]⟩ : Shape).Idx) (q : D.contr.Idx) : (D.lhsIdx j q (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  exact Cert.PlainDot.coord_congr j _ _ _ _ (by simp [hlb, hln])

/-- The right operand's ROW is the result's column. -/
theorem rhs_row (hlb : D.lhsBatch = []) (hln : D.lhsNonContracting = [(0 : Fin 2)]) (hrb : D.rhsBatch = [])
    (hrn : D.rhsNonContracting = [(0 : Fin 2)])
    (j : (⟨2, ![a, b]⟩ : Shape).Idx) (q : D.contr.Idx) : (D.rhsIdx j q (0 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  exact Cert.PlainDot.coord_congr j _ _ _ _ (by simp [hlb, hln, hrn])

/-- Entry (r, c) of the product with the transposed right factor, into a zero accumulator, is
    Σ_κ lhs(r, κ) · rhs(c, κ). -/
theorem matmul_nt_zero_apply (hr : D.contr.rank = 1) (hs : D.contr.size ⟨0, by omega⟩ = k)
    (hlb : D.lhsBatch = []) (hln : D.lhsNonContracting = [(0 : Fin 2)]) (hlc : D.lhsContracting = [(1 : Fin 2)])
    (hrb : D.rhsBatch = []) (hrn : D.rhsNonContracting = [(0 : Fin 2)]) (hrc : D.rhsContracting = [(1 : Fin 2)])
    {φ₁ φ₂ : FTy} (prec : Option ContractPrecision)
    (lhs : FVec Ideal ⟨2, ![a, k]⟩ φ₁) (rhs : FVec Ideal ⟨2, ![b, k]⟩ φ₂) (r : Fin a) (c : Fin b) :
    matmul D prec lhs rhs (constant ⟨2, ![a, b]⟩ .f32 0x00000000#32) (ix2 r c) = ∑ κ : Fin k, lhs (ix2 r κ) * rhs (ix2 c κ) := by
  show FloatOps.matmul D prec lhs rhs (constant ⟨2, ![a, b]⟩ .f32 0x00000000#32) (ix2 r c) = _
  rw [Ideal.matmul_constant_zero_apply, ← Equiv.sum_comp (contrEquiv1 D k hr hs).symm]
  refine Finset.sum_congr rfl fun κ _ => ?_
  have hk := contrEquiv1_symm_val D k hr hs κ
  have el : D.lhsIdx (ix2 r c) ((contrEquiv1 D k hr hs).symm κ) = ix2 r κ := funext fun ax => Fin.ext (by
    match ax with
    | ⟨0, _⟩ => exact lhs_row D hlb hln _ _
    | ⟨1, _⟩ => exact (D.lhsIdx_val_of_single hlc _ _).trans hk)
  have er : D.rhsIdx (ix2 r c) ((contrEquiv1 D k hr hs).symm κ) = ix2 c κ := funext fun ax => Fin.ext (by
    match ax with
    | ⟨0, _⟩ => exact rhs_row D hlb hln hrb hrn _ _
    | ⟨1, _⟩ => exact (D.rhsIdx_val_of_single hrc _ _).trans hk)
  rw [el, er]

end Cert.DotNT
-- ==== Proof.PoolBody.lean ====
/-
  What the pooling body leaves in its output block, entry by entry.

  For each of the three colour planes the body multiplies the 4 x 1024 averaging matrix by the plane (a 1024 x 1024
  matrix) and the result by the transpose of the averaging matrix.  Over the extended reals entry (i, j) of the 4 x 4
  result is  Σ_κ (Σ_η a(i, η) · x(η, κ)) · a(j, κ),  and the three results are stored side by side along the block's
  plane axis, so the block's entry (u, p, i, j) is that double sum over plane p.
-/
import proofs.«121349_j70557722739343_2_alg».proof.Proof.Gen.KernelIdeal.Frame
import proofs.«121349_j70557722739343_2_alg».proof.Proof.LibPlainDot
import proofs.«121349_j70557722739343_2_alg».proof.Proof.LibCoords
import proofs.«121349_j70557722739343_2_alg».proof.Proof.LibDotNT
import Idealize.ShloMosaic.Lib.Pipeline.Value

noncomputable section

namespace Cert.KernelIdeal.Pool

open Cert.KernelIdeal Cert.KernelIdeal.Gen Idealize.ShloMosaic Idealize.ShloMosaic.ValueIdx

/-- The pooled entry (i, j) of a plane `X` under an averaging matrix `a`:  Σ_κ (Σ_η a(i, η) · X(η, κ)) · a(j, κ). -/
def planeSum (a : Fin 4 → Fin 1024 → EReal) (X : Fin 1024 → Fin 1024 → EReal) (i j : Fin 4) : EReal :=
  ∑ κ : Fin 1024, (∑ η : Fin 1024, a i η * X η κ) * a j κ

/-- The two products and the two changes of layout around them, read at an entry. -/
theorem plane_apply (v0 : FVec Ideal S4x1024 .f32) (v1 : FVec Ideal S1x1x1024x1024 .f32) (u w : Fin 1) (i j : Fin 4) :
    shapeCast S1x1x4x4 (matmul dot_S4x1024_S4x1024_S4x4_1_1_0_0_n_n (some .fp32)
        (matmul dot_S4x1024_S1024x1024_S4x1024_1_0_0_1_n_n (some .fp32) v0
          (shapeCast S1024x1024 v1 shapeCasts_S1x1x1024x1024_S1024x1024) (constant S4x1024 .f32 0x00000000#32))
        v0 (constant S4x4 .f32 0x00000000#32)) shapeCasts_S4x4_S1x1x4x4 (ix4 u w i j)
      = planeSum (fun r η => v0 (ix2 r η)) (fun η κ => v1 (ix4 (0 : Fin 1) (0 : Fin 1) η κ)) i j := by
  refine (Cert.LibCoords.shapeCast_ab_11ab_apply _ _ u w i j).trans ?_
  refine (Cert.DotNT.matmul_nt_zero_apply dot_S4x1024_S4x1024_S4x4_1_1_0_0_n_n rfl rfl rfl rfl rfl rfl rfl rfl
    (some .fp32) _ v0 i j).trans ?_
  unfold planeSum
  refine Finset.sum_congr rfl fun κ _ => ?_
  refine congrArg (· * v0 (ix2 j κ)) ?_
  refine (Cert.PlainDot.matmul_zero_apply dot_S4x1024_S1024x1024_S4x1024_1_0_0_1_n_n rfl rfl rfl rfl rfl rfl rfl rfl
    (some .fp32) v0 _ i κ).trans ?_
  refine Finset.sum_congr rfl fun η _ => ?_
  refine congrArg (v0 (ix2 i η) * ·) ?_
  exact Cert.LibCoords.shapeCast_11ab_ab_apply v1 _ η κ

theorem pay1_apply (v0 : FVec Ideal S4x1024 .f32) (v1 : FVec Ideal S1x1x1024x1024 .f32) (u w : Fin 1) (i j : Fin 4) :
    k0_pay1 (F := Ideal) v0 v1 (ix4 u w i j) = planeSum (fun r η => v0 (ix2 r η)) (fun η κ => v1 (ix4 (0 : Fin 1) (0 : Fin 1) η κ)) i j :=
  plane_apply v0 v1 u w i j
theorem pay2_apply (v0 : FVec Ideal S4x1024 .f32) (v1 : FVec Ideal S1x1x1024x1024 .f32) (u w : Fin 1) (i j : Fin 4) :
    k0_pay2 (F := Ideal) v0 v1 (ix4 u w i j) = planeSum (fun r η => v0 (ix2 r η)) (fun η κ => v1 (ix4 (0 : Fin 1) (0 : Fin 1) η κ)) i j :=
  plane_apply v0 v1 u w i j
theorem pay3_apply (v0 : FVec Ideal S4x1024 .f32) (v1 : FVec Ideal S1x1x1024x1024 .f32) (u w : Fin 1) (i j : Fin 4) :
    k0_pay3 (F := Ideal) v0 v1 (ix4 u w i j) = planeSum (fun r η => v0 (ix2 r η)) (fun η κ => v1 (ix4 (0 : Fin 1) (0 : Fin 1) η κ)) i j :=
  plane_apply v0 v1 u w i j

/-- The pooled entry depends on the plane's entries and on the position only. -/
theorem planeSum_congr (a : Fin 4 → Fin 1024 → EReal) (X X' : Fin 1024 → Fin 1024 → EReal) {i i' j j' : Fin 4}
    (hi : i = i') (hj : j = j') (hX : ∀ η κ, X η κ = X' η κ) : planeSum a X i j = planeSum a X' i' j' := by
  subst hi hj
  unfold planeSum
  exact Finset.sum_congr rfl fun κ _ => congrArg (· * a j κ) (Finset.sum_congr rfl fun η _ => congrArg (a i η * ·) (hX η κ))

/-- … and on the averaging matrix's entries only. -/
theorem planeSum_congr_left (a a' : Fin 4 → Fin 1024 → EReal) (X : Fin 1024 → Fin 1024 → EReal) (i j : Fin 4)
    (ha : ∀ r η, a r η = a' r η) : planeSum a X i j = planeSum a' X i j := by
  have e : a = a' := funext fun r => funext fun η => ha r η
  rw [e]

/-! ## The block the body leaves -/

/-- Entry (u, p, i, j) of the output block: plane p of the input block pooled, at (i, j). -/
def blockOut (x0 : S1x3x1024x1024.Idx → EReal) (x1 : S4x1024.Idx → EReal) : S1x3x4x4.Idx → EReal := fun y =>
  planeSum (fun r η => x1 (ix2 r η)) (fun η κ => x0 (ix4 (y 0) (y 1) η κ)) (y 2) (y 3)

theorem hz2 : (![0, 0] : Fin 2 → Nat) = fun _ => 0 := funext fun a => by fin_cases a <;> rfl

/-- The three stores are the three planes of one function of the block index. -/
theorem out0_2_eq (x0 : Vec Ideal S1x3x1024x1024 .f32) (x1 : Vec Ideal S4x1024 .f32) :
    out0_2 (F := Ideal) x0 x1 = blockOut x0 x1 := by
  funext y
  unfold out0_2
  refine View.canon_apply_of_pieces (Val := Elt Ideal) (blockOut x0 x1) _ ?_ y (cover0_2 _ _ _ y)
  intro p hp
  simp only [List.mem_cons, List.mem_nil_iff, or_false] at hp
  rcases hp with rfl | rfl | rfl
  · intro x
    obtain ⟨u, w, i, j, rfl⟩ : ∃ (u w : Fin 1) (i j : Fin 4), x = ix4 u w i j := ⟨x 0, x 1, x 2, x 3, eq_ix4 x⟩
    dsimp only
    refine (pay3_apply _ _ u w i j).trans ?_
    rw [View.ld_unit_zero (S := S4x1024) hz2]
    unfold blockOut
    have hu : u.val = 0 := by omega
    have hw : w.val = 0 := by omega
    refine planeSum_congr _ _ _ (Fin.ext ?_) (Fin.ext ?_) fun η κ => congrArg x0 (funext fun a => Fin.ext ?_)
    · show i.val = 0 + 1 * i.val
      omega
    · show j.val = 0 + 1 * j.val
      omega
    · match a with
      | ⟨0, _⟩ => show 0 + 1 * 0 = 0 + 1 * u.val; omega
      | ⟨1, _⟩ => show 2 + 1 * 0 = 2 + 1 * w.val; omega
      | ⟨2, _⟩ => show 0 + 1 * η.val = η.val; omega
      | ⟨3, _⟩ => show 0 + 1 * κ.val = κ.val; omega
  · intro x
    obtain ⟨u, w, i, j, rfl⟩ : ∃ (u w : Fin 1) (i j : Fin 4), x = ix4 u w i j := ⟨x 0, x 1, x 2, x 3, eq_ix4 x⟩
    dsimp only
    refine (pay2_apply _ _ u w i j).trans ?_
    rw [View.ld_unit_zero (S := S4x1024) hz2]
    unfold blockOut
    have hu : u.val = 0 := by omega
    have hw : w.val = 0 := by omega
    refine planeSum_congr _ _ _ (Fin.ext ?_) (Fin.ext ?_) fun η κ => congrArg x0 (funext fun a => Fin.ext ?_)
    · show i.val = 0 + 1 * i.val
      omega
    · show j.val = 0 + 1 * j.val
      omega
    · match a with
      | ⟨0, _⟩ => show 0 + 1 * 0 = 0 + 1 * u.val; omega
      | ⟨1, _⟩ => show 1 + 1 * 0 = 1 + 1 * w.val; omega
      | ⟨2, _⟩ => show 0 + 1 * η.val = η.val; omega
      | ⟨3, _⟩ => show 0 + 1 * κ.val = κ.val; omega
  · intro x
    obtain ⟨u, w, i, j, rfl⟩ : ∃ (u w : Fin 1) (i j : Fin 4), x = ix4 u w i j := ⟨x 0, x 1, x 2, x 3, eq_ix4 x⟩
    dsimp only
    refine (pay1_apply _ _ u w i j).trans ?_
    rw [View.ld_unit_zero (S := S4x1024) hz2]
    unfold blockOut
    have hu : u.val = 0 := by omega
    have hw : w.val = 0 := by omega
    refine planeSum_congr _ _ _ (Fin.ext ?_) (Fin.ext ?_) fun η κ => congrArg x0 (funext fun a => Fin.ext ?_)
    · show i.val = 0 + 1 * i.val
      omega
    · show j.val = 0 + 1 * j.val
      omega
    · match a with
      | ⟨0, _⟩ => show 0 + 1 * 0 = 0 + 1 * u.val; omega
      | ⟨1, _⟩ => show 0 + 1 * 0 = 0 + 1 * w.val; omega
      | ⟨2, _⟩ => show 0 + 1 * η.val = η.val; omega
      | ⟨3, _⟩ => show 0 + 1 * κ.val = κ.val; omega

end Cert.KernelIdeal.Pool

end
-- ==== Proof.PoolBlocks.lean ====
/-
  From the blocks the grid points write back to the whole array of region sums.

  Grid point t stages image t (all three planes) and the whole averaging matrix, and writes back the [1, 3, 4, 4] block
  of image t.  Each block is the restriction of ONE function of the two arrays the region finds — entry (b, p, i, j) is
  plane p of image b pooled at (i, j) — and the 32 blocks tile the [32, 3, 4, 4] result, so the array ends holding that
  function.
-/
import proofs.«121349_j70557722739343_2_alg».proof.Proof.PoolBody

noncomputable section

namespace Cert.KernelIdeal.Pool

open Cert.KernelIdeal Cert.KernelIdeal.Gen Idealize.ShloMosaic Idealize.ShloMosaic.ValueIdx
open Idealize.ShloMosaic.Pipeline (Dat)

/-- Entry (b, p, i, j) of the result: plane p of image b pooled at (i, j) under the averaging matrix `W`. -/
def poolOut (X : S32x3x1024x1024.Idx → EReal) (W : S4x1024.Idx → EReal) : S32x3x4x4.Idx → EReal := fun z =>
  planeSum (fun r η => W (ix2 r η)) (fun η κ => X (ix4 (z 0) (z 1) η κ)) (z 2) (z 3)

/-- A block entry is the array entry it sits at, once the block's inputs are the arrays' entries there. -/
theorem blockOut_eq_poolOut (x0 : S1x3x1024x1024.Idx → EReal) (x1 : S4x1024.Idx → EReal)
    (X : S32x3x1024x1024.Idx → EReal) (W : S4x1024.Idx → EReal) (y : S1x3x4x4.Idx) (z : S32x3x4x4.Idx)
    (h1 : ∀ r η, x1 (ix2 r η) = W (ix2 r η))
    (h0 : ∀ η κ, x0 (ix4 (y 0) (y 1) η κ) = X (ix4 (z 0) (z 1) η κ))
    (h2 : (y 2).val = (z 2).val) (h3 : (y 3).val = (z 3).val) : blockOut x0 x1 y = poolOut X W z := by
  unfold blockOut poolOut
  exact (planeSum_congr_left _ _ _ _ _ h1).trans (planeSum_congr _ _ _ (Fin.ext h2) (Fin.ext h3) h0)

variable (m : (ℓ : Loc nD τ sig) → Buf (Elt Ideal) ℓ)

/-- The printed index maps over the grid: point t reads image t and the whole matrix, and writes image t's block. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- Every image is some point's. -/
theorem idx_onto : ∀ q : Fin 32, ∃ t : Fin cfg0.N, win0_2.index t = ![q.val, 0, 0, 0] :=
  (by decide +kernel : ∀ q : Fin 32, ∃ t : Fin grid0.N, win0_2.index t = ![q.val, 0, 0, 0])

/-- What point t writes back is block t of the pooled array of the two arrays the region finds. -/
theorem flushed_eq (c : Dev nD) (t : Fin cfg0.N) :
    (dats m 0 c).flushed 2 t
      = ((cfg0.win 2).blk t).view.read (Elt Ideal) (poolOut (V m c main_arg0) (V m c main_cst)) := by
  show (cfg0.win 2).cut (grid0.coords t) ((dats m 0 c).after 2 t) = _
  rw [after0_2, out0_2_eq]
  obtain ⟨a0, a1, a2, a3, b0, b1, c0, c1, c2, c3⟩ := idx_facts t
  funext y
  show blockOut (iblk m c 0 t) (iblk m c 1 t) y
    = poolOut (V m c main_arg0) (V m c main_cst) (((cfg0.win 2).blk t).view.emb y)
  refine blockOut_eq_poolOut _ _ _ _ y _ ?_ ?_ ?_ ?_
  · intro r η
    show V m c main_cst (((cfg0.win 1).blk t).view.emb (ix2 r η)) = V m c main_cst (ix2 r η)
    refine congrArg _ (funext fun a => Fin.ext ?_)
    match a with
    | ⟨0, _⟩ => show win0_1.index t (0 : Fin 2) * 4 + 1 * r.val = r.val; omega
    | ⟨1, _⟩ => show win0_1.index t (1 : Fin 2) * 1024 + 1 * η.val = η.val; omega
  · intro η κ
    show V m c main_arg0 (((cfg0.win 0).blk t).view.emb (ix4 (y 0) (y 1) η κ)) = _
    refine congrArg _ (funext fun a => Fin.ext ?_)
    match a with
    | ⟨0, _⟩ => show win0_0.index t (0 : Fin 4) * 1 + 1 * (y 0).val = win0_2.index t (0 : Fin 4) * 1 + 1 * (y 0).val; omega
    | ⟨1, _⟩ => show win0_0.index t (1 : Fin 4) * 3 + 1 * (y 1).val = win0_2.index t (1 : Fin 4) * 3 + 1 * (y 1).val; omega
    | ⟨2, _⟩ => show win0_0.index t (2 : Fin 4) * 1024 + 1 * η.val = η.val; omega
    | ⟨3, _⟩ => show win0_0.index t (3 : Fin 4) * 1024 + 1 * κ.val = κ.val; omega
  · show (y 2).val = win0_2.index t (2 : Fin 4) * 4 + 1 * (y 2).val; omega
  · show (y 3).val = win0_2.index t (3 : Fin 4) * 4 + 1 * (y 3).val; omega

/-- An index of the result is in point t's block iff each coordinate is in the block's range on its axis. -/
theorem mem_blk (t : Fin cfg0.N) (i : S32x3x4x4.Idx) :
    i ∈ ((cfg0.win 2).blk t).view.set ↔ ∀ a : Fin 4, win0_2.index t a * S1x3x4x4.size a ≤ (i a).val
      ∧ (i a).val < win0_2.index t a * S1x3x4x4.size a + S1x3x4x4.size a := by
  show i ∈ ((View.whole main_v0).slice (win0_2.rect t)).set ↔ _
  rw [View.set_slice_whole, Rect.mem_set_unit]
  exact Iff.rfl

/-- The 32 blocks tile the result: every index is in the block of its image's point. -/
theorem cover (i : S32x3x4x4.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 4 := (i 2).isLt
  have hi3 : (i 3).val < 4 := (i 3).isLt
  obtain ⟨t, ht⟩ := idx_onto ⟨(i 0).val, hi0⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 4 ≤ (i 2).val ∧ (i 2).val < win0_2.index t (2 : Fin 4) * 4 + 4; omega
  | ⟨3, _⟩ => show win0_2.index t (3 : Fin 4) * 4 ≤ (i 3).val ∧ (i 3).val < win0_2.index t (3 : Fin 4) * 4 + 4; omega

/-- The result array after the region: the pooled array of the two arrays the region finds. -/
theorem final (c : Dev nD) :
    (dats m 0 c).arrAt 2 cfg0.N = poolOut (V m c main_arg0) (V m c main_cst) :=
  (dats m 0 c).arrAt_eq_of_cover 2 _ (fun t _ => flushed_eq m c t) cover

end Cert.KernelIdeal.Pool

end
-- ==== Proof.Tail.lean ====
import proofs.«121349_j70557722739343_2_alg».proof.Proof.Gen.ReferenceIdeal
import Idealize.ShloMosaic.PureOps.Ideal

/-!
# The two halves of the reference value, as pure functions at the ideal instance

The reference computes, for an input `x` of shape [32, 3, 1024, 1024] (32 images, 3 channels, 1024 × 1024 pixels):

* `means x` : for every image `b`, channel `c` and cell `(i, j)` of a 4 × 4 grid of 256 × 256 regions, the mean of `x`
  over the region — the array is viewed as [32, 3, 4, 256, 4, 256], summed over the two axes of length 256 starting
  from 0, and divided by 65536 = 256 · 256;
* `tail y` : for a [32, 3, 4, 4] array `y` (the sixteen region means of each image and channel, read as a row of 16):
  the unbiased standard deviation `σ(b, c)` of the sixteen values — with `μ = (Σ y) / 16`,
  `σ = sqrt ((Σ (y - μ)²) / (16 - 1))`, the quotient replaced by the quiet NaN constant when `16 - 1 > 0` fails —,
  then `s(b) = (Σ_c σ(b, c)) / 3`, then `r(b) = 1 / (1 + s(b))`, then `(Σ_b r(b)) / 32`: one scalar.

Both are written operation by operation, in the order and with the operands of the host program, so that the
program's run yields exactly these terms; every sum starts from the constant 0 and every constant is given by its
bit pattern (0x47800000 is 65536, 0x41800000 is 16, 0x40400000 is 3, 0x3F800000 is 1, 0x42000000 is 32).
-/

noncomputable section

namespace Cert.Tail

open Cert.ReferenceIdeal Cert.ReferenceIdeal.Facts₀ Idealize.ShloMosaic

/-- The region means: `x` viewed as [32, 3, 4, 256, 4, 256], summed over axes 3 and 5 from 0, divided by 65536. -/
def means (x : FVec Ideal S32x3x1024x1024 .f32) : FVec Ideal S32x3x4x4 .f32 :=
  Host.divf (F := Ideal)
    (Host.reduceAdd (F := Ideal)
      (fun i => shapeCast S32x3x4x256x4x256 x shapeCasts_S32x3x1024x1024_S32x3x4x256x4x256 i)
      (constant (F := Ideal) S_ .f32 0x00000000#32) reducesTo_S32x3x4x256x4x256_S32x3x4x4_d3_5 h_S_)
    (broadcastInDim S32x3x4x4 ![] bcast_S_S32x3x4x4 (constant (F := Ideal) S_ .f32 0x47800000#32))

/-- From the region means to the scalar: `y` read as [32, 3, 16]; over the last axis the mean `μ = (Σ y) / 16`, the
    deviations `y - μ`, their squares summed and divided by `16 - 1` (the `1` an integer constant converted to a
    float; the quotient kept when `16 - 1 > 0`, else the quiet NaN), the square root; then the mean over the 3
    channels, `1 / (1 + ·)`, and the mean over the 32 images. The deviations occur twice (the square is a product of
    the value with itself) and the reshaped `y` twice in each, as the program reads them. -/
def tail (y : FVec Ideal S32x3x4x4 .f32) : FVec Ideal S_ .f32 :=
  Host.divf (F := Ideal)
    (Host.reduceAdd (F := Ideal)
      (Host.divf (F := Ideal)
        (broadcastInDim S32 ![] bcast_S_S32 (constant (F := Ideal) S_ .f32 0x3F800000#32))
        (addf (F := Ideal)
          (broadcastInDim S32 ![] bcast_S_S32 (constant (F := Ideal) S_ .f32 0x3F800000#32))
          (Host.divf (F := Ideal)
            (Host.reduceAdd (F := Ideal)
              (Host.sqrt (F := Ideal)
                (select
                  (broadcastInDim S32x3 ![] bcast_S_S32x3
                    (cmpf (F := Ideal) .ogt
                      (subf (F := Ideal) (constant (F := Ideal) S_ .f32 0x41800000#32) (sitofp (F := Ideal) .f32 (constantI S_ 32 1#32)))
                      (constant (F := Ideal) S_ .f32 0x00000000#32)))
                  (Host.divf (F := Ideal)
                    (Host.reduceAdd (F := Ideal)
                      (mulf (F := Ideal)
                        (subf (F := Ideal)
                          (fun i => shapeCast S32x3x16 y shapeCasts_S32x3x4x4_S32x3x16 i)
                          (broadcastInDim S32x3x16 ![0, 1, 2] bcast_S32x3x1_S32x3x16_0_1_2
                            (Host.divf (F := Ideal)
                              (broadcastInDim S32x3x1 ![0, 1] bcast_S32x3_S32x3x1_0_1
                                (Host.reduceAdd (F := Ideal)
                                  (fun i => shapeCast S32x3x16 y shapeCasts_S32x3x4x4_S32x3x16 i)
                                  (constant (F := Ideal) S_ .f32 0x00000000#32)
                                  reducesTo_S32x3x16_S32x3_d2 h_S_))
                              (broadcastInDim S32x3x1 ![] bcast_S_S32x3x1 (constant (F := Ideal) S_ .f32 0x41800000#32)))))
                        (subf (F := Ideal)
                          (fun i => shapeCast S32x3x16 y shapeCasts_S32x3x4x4_S32x3x16 i)
                          (broadcastInDim S32x3x16 ![0, 1, 2] bcast_S32x3x1_S32x3x16_0_1_2
                            (Host.divf (F := Ideal)
                              (broadcastInDim S32x3x1 ![0, 1] bcast_S32x3_S32x3x1_0_1
                                (Host.reduceAdd (F := Ideal)
                                  (fun i => shapeCast S32x3x16 y shapeCasts_S32x3x4x4_S32x3x16 i)
                                  (constant (F := Ideal) S_ .f32 0x00000000#32)
                                  reducesTo_S32x3x16_S32x3_d2 h_S_))
                              (broadcastInDim S32x3x1 ![] bcast_S_S32x3x1 (constant (F := Ideal) S_ .f32 0x41800000#32))))))
                      (constant (F := Ideal) S_ .f32 0x00000000#32)
                      reducesTo_S32x3x16_S32x3_d2 h_S_)
                    (broadcastInDim S32x3 ![] bcast_S_S32x3
                      (subf (F := Ideal) (constant (F := Ideal) S_ .f32 0x41800000#32) (sitofp (F := Ideal) .f32 (constantI S_ 32 1#32)))))
                  (broadcastInDim S32x3 ![] bcast_S_S32x3 (id (constant (F := Ideal) S_ .f32 0x7FC00000#32)))))
              (constant (F := Ideal) S_ .f32 0x00000000#32)
              reducesTo_S32x3_S32_d1 h_S_)
            (broadcastInDim S32 ![] bcast_S_S32 (constant (F := Ideal) S_ .f32 0x40400000#32)))))
      (constant (F := Ideal) S_ .f32 0x00000000#32)
      reducesTo_S32_S_d0 h_S_)
    (constant (F := Ideal) S_ .f32 0x42000000#32)

end Cert.Tail

end
-- ==== Proof.KernelTail.lean ====
import proofs.«121349_j70557722739343_2_alg».proof.Proof.Gen.KernelIdeal.Launch
import proofs.«121349_j70557722739343_2_alg».proof.Proof.Tail
import Idealize.ShloMosaic.Lib.StableHlo.Run

/-!
# The host operations after the kernel compute the tail

After its kernel region the program runs, on the [32, 3, 4, 4] array the region wrote, the very operations the reference
runs on its region means: the view as [32, 3, 16], the unbiased standard deviation over the last axis, the mean over
the channels, `1 / (1 + ·)`, the mean over the images. Their composition, read at the scalar result, is
`Cert.Tail.tail` of the array's contents: the shapes are the same literals and the side conditions are propositions.
-/

noncomputable section

namespace Cert.KernelIdeal.TailRun

open Cert.KernelIdeal Cert.KernelIdeal.Gen Idealize.ShloMosaic Idealize.ShloMosaic.StableHlo

set_option maxHeartbeats 400000 in
/-- After the three stretches of host operations that follow the region — the view as [32, 3, 16] and the integer 1,
    the standard-deviation function's twenty-three operations, the last fifteen —, the scalar result buffer holds the
    tail of what the region's result array held: each operation's result at its own buffer is its function's value, at
    any other buffer what was there, and the typed references' transports are the identity at these literal buffers. -/
theorem tail_eq (W : Valuation τ sig (Elt Ideal)) :
    StableHlo.after (List.flatten [hostOps1 (F := Ideal), hostOps1_1, hostOps1_2]) W (Proc.devRef .tc main_v11)
      = Cert.Tail.tail (W (Proc.devRef .tc main_v0)) := by
  simp only [hostOps1, hostOps1_1, hostOps1_2, List.flatten_cons, List.flatten_nil, List.append_nil, List.cons_append,
    List.nil_append]
  after_results_simp
  rfl

end Cert.KernelIdeal.TailRun

end
-- ==== Proof.KernelRun.lean ====
/-
  The kernel program's run, read back.

  The pooling region leaves the [32, 3, 4, 4] array of pooled planes; the host lines after the region (the spread of
  the sixteen values of each image and plane, averaged to one number) are one function `tail` of that array, the same
  function the reference applies to its region means.  So the program's result is `tail` of the pooled array of the
  input images and the averaging matrix, and the input is left as it was.
-/
import proofs.«121349_j70557722739343_2_alg».proof.Proof.PoolBlocks
import proofs.«121349_j70557722739343_2_alg».proof.Proof.KernelTail

noncomputable section

namespace Cert.KernelIdeal.Pool

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The scalar result is no array of the region. -/
theorem v11_rest : main_v11 ∈ Pipeline.restRefs sig (cfgs 0).spec :=
  Pipeline.mem_restRefs_of main_v11 rfl (by decide)

/-- What the host lines after the region compute from what the region leaves. -/
theorem tail_value (c : Dev nD) :
    Pipeline.afterTail₀ cfgs (dats m) 0 (V0 m) [hostOps1, hostOps1_1, hostOps1_2] c main_v11
      = Cert.Tail.tail (poolOut (m ((c.tc : Thread nD τ).loc main_arg0)) (V m c main_cst)) := by
  unfold Pipeline.afterTail₀
  refine (Cert.KernelIdeal.TailRun.tail_eq _).trans (congrArg Cert.Tail.tail ?_)
  refine ((Pipeline.withArrays_arr spec0 launch0.win.arr_inj c _ _ 2).trans (final m c)).trans ?_
  rw [V_main_arg0]

/-- Every weakly fair execution of the kernel program ends with the result at `tail` of the pooled array and the
    input unchanged. -/
theorem run : θ_run (defs (F := Ideal)) (onTc (τ := τ) (main (F := Ideal))) ⟨m, fun _ => 0, ρ⟩ fun r => ∀ c : Dev nD,
      r.2.mem ((c.tc : Thread nD τ).loc main_v11)
        = Cert.Tail.tail (poolOut (m ((c.tc : Thread nD τ).loc main_arg0)) (V m c main_cst))
      ∧ r.2.mem ((c.tc : Thread nD τ).loc main_arg0) = m ((c.tc : Thread nD τ).loc main_arg0) :=
  (θ_run defs _ _).mono (fun _ h c => ⟨((h c).2 main_v11 v11_rest).trans (tail_value m c),
      ((h c).1 0).trans (((dats m 0 c).arrAt_in 0 rfl _).trans ((A_eq m c 0).trans (V_main_arg0 m c)))⟩)
    (run_main m ρ)

end Cert.KernelIdeal.Pool

end
-- ==== Proof.PoolAlgebra.lean ====
import Mathlib.Data.EReal.Operations
import Mathlib.Algebra.BigOperators.Fin
import Mathlib.Algebra.BigOperators.Ring.Finset
import Mathlib.Tactic.Ring
import Mathlib.Tactic.NormNum
import Idealize.ShloMosaic.PureOps.Ideal

/-!
# Pooling a 1024 × 1024 plane to 4 × 4 block means

Two matrix products with the 4 × 1024 averaging matrix `wh`
(`wh i h = 1/256` when `h` lies in the `i`-th block of 256 consecutive indices, else `0`)
compute, for a plane `X`,
`K i j = ∑ w, (∑ h, wh i h * X h w) * wh j w`.
For a plane of finite entries this is the sum of the 256 × 256 block `(i, j)` divided by
`65536 = 256 * 256`. Over the extended reals the distributive law fails at the infinities,
so the entries are required to be real; the identity is then an identity of real numbers,
transported along the coercion `ℝ → EReal`, which preserves finite sums and products.
-/

namespace Cert.Pool

open Finset

/-- The averaging matrix: `1/256` on the `i`-th block of 256 indices, `0` elsewhere. -/
noncomputable def wh (i : Fin 4) (h : Fin 1024) : EReal :=
  if h.val / 256 = i.val then ((1 / 256 : ℝ) : EReal) else 0

/-- The same matrix with real entries. -/
noncomputable def whr (i : Fin 4) (h : Fin 1024) : ℝ :=
  if h.val / 256 = i.val then (1 / 256 : ℝ) else 0

theorem wh_eq_coe (i : Fin 4) (h : Fin 1024) : wh i h = ((whr i h : ℝ) : EReal) := by
  unfold wh whr
  split_ifs
  · rfl
  · exact EReal.coe_zero.symm

/-- The coercion `ℝ → EReal` commutes with finite sums. -/
theorem coe_sum {ι : Type*} (s : Finset ι) (f : ι → ℝ) :
    ((∑ a ∈ s, f a : ℝ) : EReal) = ∑ a ∈ s, ((f a : ℝ) : EReal) := by
  classical
  induction s using Finset.induction_on with
  | empty => simp
  | insert a s ha ih => rw [Finset.sum_insert ha, Finset.sum_insert ha, EReal.coe_add, ih]

/-- An index below 1024 is a block number below 4 and an offset below 256. -/
def blockEquiv : Fin 4 × Fin 256 ≃ Fin 1024 where
  toFun x := ⟨x.1.val * 256 + x.2.val, by omega⟩
  invFun h := (⟨h.val / 256, by omega⟩, ⟨h.val % 256, by omega⟩)
  left_inv x := by
    rcases x with ⟨a, p⟩
    refine Prod.ext (Fin.ext ?_) (Fin.ext ?_)
    · show (a.val * 256 + p.val) / 256 = a.val
      omega
    · show (a.val * 256 + p.val) % 256 = p.val
      omega
  right_inv h := by
    refine Fin.ext ?_
    show h.val / 256 * 256 + h.val % 256 = h.val
    omega

/-- A sum over 1024 indices is a sum over 4 blocks of 256 offsets. -/
theorem sum_blocks (g : Fin 1024 → ℝ) :
    ∑ h : Fin 1024, g h
      = ∑ a : Fin 4, ∑ p : Fin 256, g ⟨a.val * 256 + p.val, by omega⟩ := by
  rw [← blockEquiv.sum_comp g, Fintype.sum_prod_type]
  rfl

/-- A row of the averaging matrix against a vector: `1/256` times the sum of the vector over
    the row's block. -/
theorem sum_whr_mul (i : Fin 4) (f : Fin 1024 → ℝ) :
    ∑ h : Fin 1024, whr i h * f h
      = (1 / 256 : ℝ) * ∑ p : Fin 256, f ⟨i.val * 256 + p.val, by omega⟩ := by
  rw [sum_blocks, Finset.sum_eq_single i]
  · rw [Finset.mul_sum]
    refine Finset.sum_congr rfl fun p _ => ?_
    have hp : (i.val * 256 + p.val) / 256 = i.val := by omega
    simp only [whr, hp, if_true]
  · intro a _ hai
    refine Finset.sum_eq_zero fun p _ => ?_
    have hne : ¬ (a.val * 256 + p.val) / 256 = i.val := by
      intro h
      apply hai
      apply Fin.ext
      omega
    simp only [whr, hne, if_false, zero_mul]
  · intro h
    exact absurd (Finset.mem_univ i) h

/-- The pooling identity over the reals. -/
theorem real_pool (x : Fin 1024 → Fin 1024 → ℝ) (i j : Fin 4) :
    (∑ w : Fin 1024, (∑ h : Fin 1024, whr i h * x h w) * whr j w)
      = (∑ p : Fin 256, ∑ q : Fin 256,
          x ⟨i.val * 256 + p.val, by omega⟩ ⟨j.val * 256 + q.val, by omega⟩) * (1 / 65536 : ℝ) := by
  have h1 : ∀ w : Fin 1024, (∑ h : Fin 1024, whr i h * x h w) * whr j w
      = whr j w * ((1 / 256 : ℝ) * ∑ p : Fin 256, x ⟨i.val * 256 + p.val, by omega⟩ w) := by
    intro w
    rw [sum_whr_mul i (fun h => x h w), mul_comm]
  rw [Finset.sum_congr rfl (fun w _ => h1 w),
    sum_whr_mul j (fun w => (1 / 256 : ℝ) * ∑ p : Fin 256, x ⟨i.val * 256 + p.val, by omega⟩ w),
    ← Finset.mul_sum, Finset.sum_comm]
  ring

/-- The pooling identity over the extended reals, for a plane of finite entries: the two
    products with the averaging matrix give the block sum divided by `65536`. -/
theorem pool_eq (X : Fin 1024 → Fin 1024 → EReal) (hX : ∀ h w, ∃ r : ℝ, X h w = (r : EReal))
    (i j : Fin 4) :
    (∑ w : Fin 1024, (∑ h : Fin 1024, wh i h * X h w) * wh j w)
      = Idealize.ShloMosaic.Ideal.div
          (∑ p : Fin 256, ∑ q : Fin 256,
            X ⟨i.val * 256 + p.val, by omega⟩ ⟨j.val * 256 + q.val, by omega⟩)
          ((65536 : ℝ) : EReal) := by
  choose xr hxr using hX
  have lhs : (∑ w : Fin 1024, (∑ h : Fin 1024, wh i h * X h w) * wh j w)
      = ((∑ w : Fin 1024, (∑ h : Fin 1024, whr i h * xr h w) * whr j w : ℝ) : EReal) := by
    rw [coe_sum]
    refine Finset.sum_congr rfl fun w _ => ?_
    rw [EReal.coe_mul, coe_sum, wh_eq_coe]
    congr 1
    refine Finset.sum_congr rfl fun h _ => ?_
    rw [EReal.coe_mul, wh_eq_coe, hxr]
  have rhs : (∑ p : Fin 256, ∑ q : Fin 256,
        X ⟨i.val * 256 + p.val, by omega⟩ ⟨j.val * 256 + q.val, by omega⟩)
      = ((∑ p : Fin 256, ∑ q : Fin 256,
          xr ⟨i.val * 256 + p.val, by omega⟩ ⟨j.val * 256 + q.val, by omega⟩ : ℝ) : EReal) := by
    rw [coe_sum]
    refine Finset.sum_congr rfl fun p _ => ?_
    rw [coe_sum]
    refine Finset.sum_congr rfl fun q _ => ?_
    rw [hxr]
  rw [lhs, rhs, Idealize.ShloMosaic.Ideal.div_coe (by norm_num), ← EReal.coe_mul, real_pool]

end Cert.Pool
-- ==== Proof.PoolMatrix.lean ====
/-
  The averaging matrix as the pooling region finds it.

  The program builds the 4 x 1024 averaging matrix as a literal table of 4096 words, row after row: entry (r, h) is the
  word of 1/256 when column h lies in the r-th group of 256 consecutive columns, and the zero word otherwise.  Read as
  extended reals the table is the matrix  a(r, h) = 1/256 if h / 256 = r, else 0.
-/
import proofs.«121349_j70557722739343_2_alg».proof.Proof.Gen.KernelIdeal.Frame
import proofs.«121349_j70557722739343_2_alg».proof.Proof.PoolAlgebra
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Pool

open Cert.KernelIdeal Cert.KernelIdeal.Gen Idealize.ShloMosaic Idealize.ShloMosaic.ValueIdx Idealize.ShloMosaic.StableHlo

/-- The table, word by word: row r, column h holds the word of 1/256 exactly when h / 256 = r. -/
theorem lit0t_eq : ∀ (r : Fin 4) (h : Fin 1024),
    lit0t (r.val * 1024 + h.val) = if h.val / 256 = r.val then 0x3B800000#32 else 0x00000000#32 := by
  decide +kernel

/-- The word 0x3B800000 is 2⁻⁸ = 1/256. -/
theorem ofBits_inv256 : Ideal.ofBits .f32 0x3B800000#32 = ((1 / 256 : ℝ) : EReal) := by
  simp [Ideal.ofBits, Ideal.ieee, -EReal.coe_mul]
  norm_num

variable (m : (ℓ : Loc nD τ sig) → Buf (Elt Ideal) ℓ)

/-- The matrix the region finds, entry by entry. -/
theorem V_cst_apply (c : Dev nD) (r : Fin 4) (h : Fin 1024) : V m c main_cst (ix2 r h) = Cert.Pool.wh r h := by
  have e : (V m c main_cst : S4x1024.Idx → EReal) = fun i => Ideal.ofBits .f32 (lit0 (S4x1024.rowMajor i)) := by
    show StableHlo.after hostOps0 (fun b => m (c, b)) (Proc.devRef .tc main_cst) = _
    after_results
    rfl
  rw [e]
  show Ideal.ofBits .f32 (lit0 (S4x1024.rowMajor (ix2 r h))) = _
  have hv : (S4x1024.rowMajor (ix2 r h)).val = r.val * 1024 + h.val := Shape.rowMajor_val_two _
  have hl : lit0 (S4x1024.rowMajor (ix2 r h)) = lit0t (r.val * 1024 + h.val) := by
    show lit0t (S4x1024.rowMajor (ix2 r h)).val = _
    rw [hv]
  rw [hl, lit0t_eq r h]
  unfold Cert.Pool.wh
  split_ifs
  · exact ofBits_inv256
  · exact Ideal.ofBits_zero_f32

end Cert.KernelIdeal.Pool

end
-- ==== Proof.RefMeans.lean ====
import proofs.«121349_j70557722739343_2_alg».proof.Proof.Gen.ReferenceIdeal
import Idealize.ShloMosaic.Lib.ValueIdxRank6
import Idealize.ShloMosaic.Lib.Pipeline.Value
import Idealize.ShloMosaic.PureOps.Ideal
import Idealize.ShloMosaic.PureOps.Ideal.Laws

/-!
# The reference's block means, read at an index

The reference views each 1024 × 1024 plane as a 4 × 256 × 4 × 256 array (a reshape: the same
elements in row-major order, so row `256 * i + p` becomes the pair `(i, p)` and column
`256 * j + q` the pair `(j, q)`), sums over the two axes of extent 256 starting from `0`, and
divides by the constant `65536`. Read at the index `(b, c, i, j)`, this is the sum of the
256 × 256 block `(i, j)` of plane `(b, c)`, divided by `65536`.

The sum over the two reduced axes is, by definition, a sum over the source indices that drop to
`(b, c, i, j)`; these are exactly the indices `(b, c, i, p, j, q)`, in bijection with the pairs
`(p, q)`, which turns it into the double sum over `p` and `q`.
-/

noncomputable section

namespace Cert.RefMeans

open Cert.ReferenceIdeal Cert.ReferenceIdeal.Facts₀ Idealize.ShloMosaic Idealize.ShloMosaic.ValueIdx

/-- The reference's first four operations as a function of the input: reshape, sum over the two
    axes of extent 256, divide by the broadcast constant. -/
noncomputable def meansTerm (x : FVec Ideal S32x3x1024x1024 .f32) : FVec Ideal S32x3x4x4 .f32 :=
  Host.divf (F := Ideal)
    (Host.reduceAdd (F := Ideal)
      (shapeCast S32x3x4x256x4x256 x shapeCasts_S32x3x1024x1024_S32x3x4x256x4x256)
      (constant (F := Ideal) S_ .f32 0x00000000#32) reducesTo_S32x3x4x256x4x256_S32x3x4x4_d3_5 h_S_)
    (broadcastInDim S32x3x4x4 ![] bcast_S_S32x3x4x4 (constant (F := Ideal) S_ .f32 0x47800000#32))

/-- The bit pattern `0x47800000` denotes `65536 = 2 ^ 16`. -/
theorem ofBits_65536 : Ideal.ofBits .f32 0x47800000#32 = ((65536 : ℝ) : EReal) := by
  simp [Ideal.ofBits, Ideal.ieee, -EReal.coe_mul]; norm_num

/-- Dropping axes 3 and 5 of a six-coordinate index keeps coordinates 0, 1, 2 and 4. -/
theorem drop_val (h : S32x3x4x256x4x256.ReducesTo [3, 5] S32x3x4x4) (s : S32x3x4x256x4x256.Idx) :
    ((h.drop s 0 : Nat) = s 0 ∧ (h.drop s 1 : Nat) = s 1) ∧ ((h.drop s 2 : Nat) = s 2 ∧ (h.drop s 3 : Nat) = s 4) :=
  ⟨⟨h.drop_apply_val_of_eq s 0 0, h.drop_apply_val_of_eq s 1 1⟩,
   ⟨h.drop_apply_val_of_eq s 2 2, h.drop_apply_val_of_eq s 3 4⟩⟩

/-- The index `(b, c, i, p, j, q)` drops to `(b, c, i, j)`. -/
theorem drop_ix6 (h : S32x3x4x256x4x256.ReducesTo [3, 5] S32x3x4x4)
    (b : Fin 32) (c : Fin 3) (i : Fin 4) (p : Fin 256) (j : Fin 4) (q : Fin 256) :
    h.drop (ix6 b c i p j q) = ix4 b c i j := by
  obtain ⟨⟨h0, h1⟩, h2, h3⟩ := drop_val h (ix6 b c i p j q)
  funext a
  match a with
  | ⟨0, _⟩ => exact Fin.ext h0
  | ⟨1, _⟩ => exact Fin.ext h1
  | ⟨2, _⟩ => exact Fin.ext h2
  | ⟨3, _⟩ => exact Fin.ext h3

/-- An index that drops to `(b, c, i, j)` is `(b, c, i, p, j, q)` for its own `p` and `q`. -/
theorem eq_ix6_of_drop (h : S32x3x4x256x4x256.ReducesTo [3, 5] S32x3x4x4) (s : S32x3x4x256x4x256.Idx)
    (b : Fin 32) (c : Fin 3) (i j : Fin 4) (e : h.drop s = ix4 b c i j) :
    ix6 b c i (s 3) j (s 5) = s := by
  obtain ⟨⟨h0, h1⟩, h2, h3⟩ := drop_val h s
  have e0 : (h.drop s 0 : Nat) = b := congrArg Fin.val (congrFun e 0)
  have e1 : (h.drop s 1 : Nat) = c := congrArg Fin.val (congrFun e 1)
  have e2 : (h.drop s 2 : Nat) = i := congrArg Fin.val (congrFun e 2)
  have e3 : (h.drop s 3 : Nat) = j := congrArg Fin.val (congrFun e 3)
  funext a
  match a with
  | ⟨0, _⟩ => exact Fin.ext (e0.symm.trans h0)
  | ⟨1, _⟩ => exact Fin.ext (e1.symm.trans h1)
  | ⟨2, _⟩ => exact Fin.ext (e2.symm.trans h2)
  | ⟨3, _⟩ => rfl
  | ⟨4, _⟩ => exact Fin.ext (e3.symm.trans h3)
  | ⟨5, _⟩ => rfl

/-- The sum over the indices that drop to `(b, c, i, j)` is the double sum over the two dropped
    coordinates. -/
theorem fibre_sum (h : S32x3x4x256x4x256.ReducesTo [3, 5] S32x3x4x4) (y : S32x3x4x256x4x256.Idx → EReal)
    (b : Fin 32) (c : Fin 3) (i j : Fin 4) :
    ∑ s ∈ Finset.univ.filter (fun s => h.drop s = ix4 b c i j), y s
      = ∑ p : Fin 256, ∑ q : Fin 256, y (ix6 b c i p j q) := by
  have key : ∑ pq : Fin 256 × Fin 256, y (ix6 b c i pq.1 j pq.2)
      = ∑ s ∈ Finset.univ.filter (fun s => h.drop s = ix4 b c i j), y s :=
    Finset.sum_nbij' (fun pq => ix6 b c i pq.1 j pq.2) (fun s => ((s 3 : Fin 256), (s 5 : Fin 256)))
      (fun pq _ => Finset.mem_filter.2 ⟨Finset.mem_univ _, drop_ix6 h b c i pq.1 j pq.2⟩)
      (fun _ _ => Finset.mem_univ _)
      (fun pq _ => rfl)
      (fun s hs => eq_ix6_of_drop h s b c i j (Finset.mem_filter.1 hs).2)
      (fun _ _ => rfl)
  rw [← key, Fintype.sum_prod_type]

/-- The reshaped plane at `(b, c, i, p, j, q)` is the plane at row `256 * i + p`, column
    `256 * j + q`: the two indices have the same row-major position. -/
theorem reshape_apply (x : FVec Ideal S32x3x1024x1024 .f32) (hc : S32x3x1024x1024.ShapeCasts S32x3x4x256x4x256)
    (b : Fin 32) (c : Fin 3) (i : Fin 4) (p : Fin 256) (j : Fin 4) (q : Fin 256) :
    shapeCast S32x3x4x256x4x256 x hc (ix6 b c i p j q)
      = x (ix4 b c ⟨i.val * 256 + p.val, by omega⟩ ⟨j.val * 256 + q.val, by omega⟩) :=
  shapeCast_apply x hc _ _ (by
    rw [Shape.rowMajor_val_four, Shape.rowMajor_val_six]
    show ((b.val * 3 + c.val) * 1024 + (i.val * 256 + p.val)) * 1024 + (j.val * 256 + q.val)
      = ((((b.val * 3 + c.val) * 4 + i.val) * 256 + p.val) * 4 + j.val) * 256 + q.val
    omega)

/-- The reference's block means at an index: the sum of the 256 × 256 block, divided by `65536`. -/
theorem meansTerm_apply (x : FVec Ideal S32x3x1024x1024 .f32) (b : Fin 32) (c : Fin 3) (i j : Fin 4) :
    meansTerm x (ix4 b c i j)
      = Ideal.div (∑ p : Fin 256, ∑ q : Fin 256,
          x (ix4 b c ⟨i.val * 256 + p.val, by omega⟩ ⟨j.val * 256 + q.val, by omega⟩)) ((65536 : ℝ) : EReal) := by
  unfold meansTerm Host.divf Host.reduceAdd
  rw [Ideal.hostDivf_def, Ideal.hostReduceAdd_def]
  have hb : broadcastInDim S32x3x4x4 ![] bcast_S_S32x3x4x4 (constant (F := Ideal) S_ .f32 0x47800000#32) (ix4 b c i j)
      = Ideal.ofBits .f32 0x47800000#32 := rfl
  have h0 : constant (F := Ideal) S_ .f32 0x00000000#32 (Shape.Idx.first h_S_) = Ideal.ofBits .f32 0x00000000#32 := rfl
  rw [hb, h0, ofBits_65536, Ideal.ofBits_zero_f32]
  unfold Ideal.hostReduceAdd
  rw [zero_add, fibre_sum]
  refine congrArg (fun t => Ideal.div t ((65536 : ℝ) : EReal)) ?_
  exact Finset.sum_congr rfl fun p _ => Finset.sum_congr rfl fun q _ => reshape_apply x _ b c i p j q

end Cert.RefMeans

end
-- ==== Proof.PoolMeans.lean ====
/-
  The pooled array is the array of region means.

  With the averaging matrix a(r, h) = 1/256 for h in the r-th group of 256 columns and 0 elsewhere, the two products
  Σ_κ (Σ_η a(i, η) · x(η, κ)) · a(j, κ)  of a plane of FINITE entries are the sum of the plane's 256 x 256 region
  (i, j) divided by 65536: the reference's region mean.  (For an infinite entry the two sides differ — a product
  0 · ∞ is 0 on the left — which is why the entries are required to be real numbers.)
-/
import proofs.«121349_j70557722739343_2_alg».proof.Proof.PoolBlocks
import proofs.«121349_j70557722739343_2_alg».proof.Proof.PoolMatrix
import proofs.«121349_j70557722739343_2_alg».proof.Proof.RefMeans
import proofs.«121349_j70557722739343_2_alg».proof.Proof.Tail

noncomputable section

namespace Cert.KernelIdeal.Pool

open Cert.KernelIdeal Cert.KernelIdeal.Gen Idealize.ShloMosaic Idealize.ShloMosaic.ValueIdx

variable (m : (ℓ : Loc nD τ sig) → Buf (Elt Ideal) ℓ)

/-- The kernel's pooled array of finite images, under the matrix the region finds, is the reference's array of
    region means, entry by entry. -/
theorem poolOut_eq_means (c : Dev nD) (x : FVec Ideal S32x3x1024x1024 .f32) (hx : ∀ i, ∃ r : ℝ, x i = (r : EReal)) :
    poolOut x (V m c main_cst) = Cert.Tail.means x := by
  funext z
  obtain ⟨b, p, i, j, rfl⟩ : ∃ (b : Fin 32) (p : Fin 3) (i j : Fin 4), z = ix4 b p i j :=
    ⟨z 0, z 1, z 2, z 3, eq_ix4 z⟩
  show _ = Cert.RefMeans.meansTerm x (ix4 b p i j)
  refine ((planeSum_congr_left _ Cert.Pool.wh _ _ _ (V_cst_apply m c)).trans ?_).trans
    (Cert.RefMeans.meansTerm_apply x b p i j).symm
  unfold planeSum
  exact Cert.Pool.pool_eq (fun η κ => x (ix4 b p η κ)) (fun η κ => hx _) i j

end Cert.KernelIdeal.Pool

end
-- ==== Proof.RefRun.lean ====
import proofs.«121349_j70557722739343_2_alg».proof.Proof.Tail
import Idealize.ShloMosaic.Lib.StableHlo.Run

/-!
# The run of the reference program

The reference is a straight line of host operations: its own, and — at the one call it makes — those of the
standard-deviation function, of the variance function that one calls, and of the selection function the variance calls,
each written at the call site over the buffers that call names. Every weakly fair execution terminates, leaving in the
result buffer the composition `Cert.Tail.tail (Cert.Tail.means x)` of the input's contents `x`, and the input unchanged.
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The program's 46 operations in order, the three functions' operations in place of the call: eight of the
    program's own (the view as [32, 3, 4, 256, 4, 256], the sum over the two axes of length 256 from 0, the division by
    65536, the view as [32, 3, 16], the integer 1), the variance function's nineteen, the selection function's three, the
    square root, and the program's last fifteen (the mean over the channels, `1 / (1 + ·)`, the mean over the images). -/
abbrev ops : List (HloOp τ sig (Elt F)) :=
  [ reshape main_arg0 main_v0 rfl shapeCasts_S32x3x1024x1024_S32x3x4x256x4x256,
    nullary main_cst (constant S_ .f32 0x00000000#32),
    binary main_v0 main_cst main_v1 ((fun x v => Host.reduceAdd x v reducesTo_S32x3x4x256x4x256_S32x3x4x4_d3_5 h_S_) : (⟨S32x3x4x256x4x256, .f32⟩ : BufTy).Contents (Elt F) → (⟨S_, .f32⟩ : BufTy).Contents (Elt F) → (⟨S32x3x4x4, .f32⟩ : BufTy).Contents (Elt F)),
    nullary main_cst_0 (constant S_ .f32 0x47800000#32),
    unary main_cst_0 main_v2 (broadcastInDim S32x3x4x4 ![] bcast_S_S32x3x4x4 : (⟨S_, .f32⟩ : BufTy).Contents (Elt F) → (⟨S32x3x4x4, .f32⟩ : BufTy).Contents (Elt F)),
    binary main_v1 main_v2 main_v3 (Host.divf : (⟨S32x3x4x4, .f32⟩ : BufTy).Contents (Elt F) → (⟨S32x3x4x4, .f32⟩ : BufTy).Contents (Elt F) → (⟨S32x3x4x4, .f32⟩ : BufTy).Contents (Elt F)),
    reshape main_v3 main_v4 rfl shapeCasts_S32x3x4x4_S32x3x16,
    nullary main_c (constantI S_ 32 1#32),
    TRef.nullary main_call0.call0.cst (constant S_ .f32 0x00000000#32),
    TRef.binary (.of main_v4) main_call0.call0.cst main_call0.call0.v0 (fun x v => Host.reduceAdd x v reducesTo_S32x3x16_S32x3_d2 h_S_),
    TRef.unary main_call0.call0.v0 main_call0.call0.v1 (broadcastInDim S32x3x1 ![0, 1] bcast_S32x3_S32x3x1_0_1),
    TRef.nullary main_call0.call0.cst_0 (constant S_ .f32 0x41800000#32),
    TRef.unary main_call0.call0.cst_0 main_call0.call0.v2 (broadcastInDim S32x3x1 ![] bcast_S_S32x3x1),
    TRef.binary main_call0.call0.v1 main_call0.call0.v2 main_call0.call0.v3 Host.divf,
    TRef.unary main_call0.call0.v3 main_call0.call0.v4 (broadcastInDim S32x3x16 ![0, 1, 2] bcast_S32x3x1_S32x3x16_0_1_2),
    TRef.binary (.of main_v4) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x41800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S32x3x16_S32x3_d2 h_S_),
    TRef.unary main_call0.call0.v8 main_call0.call0.v10 (broadcastInDim S32x3 ![] bcast_S_S32x3),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S32x3 ![] bcast_S_S32x3),
    TRef.ternary main_call0.call0.v12 main_call0.call0.v11 main_call0.call0.call0.v1 main_call0.call0.call0.v2 (fun p a b => select (broadcastInDim S32x3 ![] bcast_S_S32x3 p) a b),
    TRef.unary main_call0.call0.call0.v2 main_call0.v1 Host.sqrt,
    nullary main_cst_1 (constant S_ .f32 0x00000000#32),
    binary main_v5 main_cst_1 main_v6 ((fun x v => Host.reduceAdd x v reducesTo_S32x3_S32_d1 h_S_) : (⟨S32x3, .f32⟩ : BufTy).Contents (Elt F) → (⟨S_, .f32⟩ : BufTy).Contents (Elt F) → (⟨S32, .f32⟩ : BufTy).Contents (Elt F)),
    nullary main_cst_2 (constant S_ .f32 0x40400000#32),
    unary main_cst_2 main_v7 (broadcastInDim S32 ![] bcast_S_S32 : (⟨S_, .f32⟩ : BufTy).Contents (Elt F) → (⟨S32, .f32⟩ : BufTy).Contents (Elt F)),
    binary main_v6 main_v7 main_v8 (Host.divf : (⟨S32, .f32⟩ : BufTy).Contents (Elt F) → (⟨S32, .f32⟩ : BufTy).Contents (Elt F) → (⟨S32, .f32⟩ : BufTy).Contents (Elt F)),
    nullary main_cst_3 (constant S_ .f32 0x3F800000#32),
    unary main_cst_3 main_v9 (broadcastInDim S32 ![] bcast_S_S32 : (⟨S_, .f32⟩ : BufTy).Contents (Elt F) → (⟨S32, .f32⟩ : BufTy).Contents (Elt F)),
    binary main_v9 main_v8 main_v10 (addf : (⟨S32, .f32⟩ : BufTy).Contents (Elt F) → (⟨S32, .f32⟩ : BufTy).Contents (Elt F) → (⟨S32, .f32⟩ : BufTy).Contents (Elt F)),
    nullary main_cst_4 (constant S_ .f32 0x3F800000#32),
    unary main_cst_4 main_v11 (broadcastInDim S32 ![] bcast_S_S32 : (⟨S_, .f32⟩ : BufTy).Contents (Elt F) → (⟨S32, .f32⟩ : BufTy).Contents (Elt F)),
    binary main_v11 main_v10 main_v12 (Host.divf : (⟨S32, .f32⟩ : BufTy).Contents (Elt F) → (⟨S32, .f32⟩ : BufTy).Contents (Elt F) → (⟨S32, .f32⟩ : BufTy).Contents (Elt F)),
    nullary main_cst_5 (constant S_ .f32 0x00000000#32),
    binary main_v12 main_cst_5 main_v13 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_6 (constant S_ .f32 0x42000000#32),
    binary main_v13 main_cst_6 main_v14 (Host.divf : (⟨S_, .f32⟩ : BufTy).Contents (Elt F) → (⟨S_, .f32⟩ : BufTy).Contents (Elt F) → (⟨S_, .f32⟩ : BufTy).Contents (Elt F)) ]

-- one bind per operation re-associated: the rewriting recurses once per statement
set_option maxRecDepth 1024 in
/-- The program is that straight line: the functions' definitions unfolded at their calls, both sides are one chain of
    operation steps once sequencing is re-associated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., nullary_bufs_sub .., binary_bufs_sub .., nullary_bufs_sub .., unary_bufs_sub .., binary_bufs_sub ..,
    reshape_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., nullary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., nullary_bufs_sub .., binary_bufs_sub ..⟩

set_option maxHeartbeats 400000 in
/-- After the operations, the result buffer holds the tail of the region means of what the input buffer held: each
    operation's result at its own buffer is its function's value, at any other buffer what was there; the typed
    references' transports are the identity at these literal buffers. -/
theorem out_eq (V : Valuation τ sig (Elt Ideal)) :
    after (ops (F := Ideal)) V (main_v14 : DevRef τ sig) = Cert.Tail.tail (Cert.Tail.means (V (main_arg0 : DevRef τ sig))) := by
  after_results_simp
  rfl

/-- No operation writes the input buffer. -/
theorem arg0_eq (V : Valuation τ sig (Elt F)) :
    after ops V (main_arg0 : DevRef τ sig) = V (main_arg0 : DevRef τ sig) := by
  after_results_simp

/-- On the device, from any memory with zero counters: every weakly fair execution of the program terminates with the
    result buffer at `tail (means x)` for `x` the input buffer's launch contents, and the input buffer unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.Tail.tail (Cert.Tail.means (m ((c.tc : Thread nD τ).loc main_arg0)))
      ∧ r.2.mem ((c.tc : Thread nD τ).loc main_arg0) = m ((c.tc : Thread nD τ).loc main_arg0) :=
  (θ_run defs _ _).mono (fun _ h c => ⟨(h c main_v14).trans (out_eq _), (h c main_arg0).trans (arg0_eq _)⟩)
    (run_seq scopedRefs_eq scopedSems_eq defs main (fun _ => ops) main_eq (fun _ => ops_sub) m ρ)

end Cert.ReferenceIdeal.RefRun

end
-- ==== Proof.FiniteInputs.lean ====
import proofs.«121349_j70557722739343_2_alg».proof.Pre_finite_inputs
import proofs.«121349_j70557722739343_2_alg».proof.Proof.Gen.Pre_finite_inputs
import Idealize.ShloMosaic.Lib.ReduceAll
import Idealize.ShloMosaic.PureOps.Ideal

/-!
# The precondition "every entry is finite", decoded

The printed predicate is `all (|x| < +∞)`: the absolute value of every entry, compared with the
constant whose bit pattern is that of `+∞`, and the conjunction of all the comparisons. Over the
extended reals `|a| = max a (-a)`, and `max a (-a) < ⊤` excludes exactly `a = ⊤` and `a = ⊥`:
an entry that passes is a real number.
-/

namespace Cert.Finite

open Idealize.ShloMosaic

/-- The shape of rank 0 has one index. -/
instance : Subsingleton Cert.Pre_finite_inputs.S_.Idx := ⟨fun a b => funext fun d => d.elim0⟩

/-- The bit pattern `0x7F800000` denotes `+∞`. -/
theorem ofBits_inf : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value `max a (-a)` is below `⊤` is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- THE PRECONDITION DECODED: every entry of an input that passes the predicate is a real number. -/
theorem real_of_pre (x : FVec Ideal Cert.Pre_finite_inputs.S32x3x1024x1024 .f32)
    (h : Cert.Pre_finite_inputs.fn (F := Ideal) x = fun _ => 1#1) :
    ∀ i, ∃ r : ℝ, x i = (r : EReal) := by
  intro i
  have e := congrFun h (fun a => a.elim0)
  dsimp only [Cert.Pre_finite_inputs.fn] at e
  -- the conjunction over all indices is 1, so the comparison at index `i` is 1
  have hi := Host.reduce_andi_all _ _ _ _ _ e i
  -- the comparison at `i` is `max (x i) (-(x i)) < ofBits 0x7F800000`
  have hc : Ideal.cmp .olt (max (x i) (-(x i))) (Ideal.ofBits .f32 0x7F800000#32) = 1#1 := hi
  rw [ofBits_inf] at hc
  unfold Ideal.cmp at hc
  rw [ofBool_eq_one] at hc
  exact real_of_abs_lt_top (x i) (of_decide_eq_true hc)

end Cert.Finite
-- ==== Proof.lean ====
/-
  The certificate of the region-mean pooling kernel against its reference.

  Both programs compute, from 32 images of 3 planes of 1024 x 1024 finite numbers, one scalar: the mean over the images
  of 1 / (1 + the mean over the planes of the unbiased standard deviation of the plane's sixteen region means), a region
  being one of the 4 x 4 squares of 256 x 256 entries.  The reference takes each region mean as the region's sum divided
  by 65536; the kernel takes it as two matrix products with the 4 x 1024 averaging matrix of entries 1/256 and 0.  For
  finite entries the two are the same real number, and from the region means on the two programs apply the same
  operations, so the results are equal; each program leaves its input as it found it.  The idealization rewrote
  nothing, so it preserves the kernel trivially.
-/
import proofs.«121349_j70557722739343_2_alg».proof.Defs
import proofs.«121349_j70557722739343_2_alg».proof.Proof.Gen.Kernel
import proofs.«121349_j70557722739343_2_alg».proof.Proof.Gen.Kernel.Skeleton
import proofs.«121349_j70557722739343_2_alg».proof.Proof.Gen.Kernel.Launch
import proofs.«121349_j70557722739343_2_alg».proof.Proof.Gen.Kernel.Points
import proofs.«121349_j70557722739343_2_alg».proof.Proof.Gen.Kernel.Frame
import proofs.«121349_j70557722739343_2_alg».proof.Proof.Gen.KernelIdeal
import proofs.«121349_j70557722739343_2_alg».proof.Proof.Gen.KernelIdeal.Skeleton
import proofs.«121349_j70557722739343_2_alg».proof.Proof.Gen.KernelIdeal.Launch
import proofs.«121349_j70557722739343_2_alg».proof.Proof.Gen.KernelIdeal.Points
import proofs.«121349_j70557722739343_2_alg».proof.Proof.Gen.KernelIdeal.Frame
import proofs.«121349_j70557722739343_2_alg».proof.Proof.Gen.ReferenceIdeal
import proofs.«121349_j70557722739343_2_alg».proof.Proof.Gen.Pre_finite_inputs
import proofs.«121349_j70557722739343_2_alg».proof.Proof.KernelRun
import proofs.«121349_j70557722739343_2_alg».proof.Proof.PoolMeans
import proofs.«121349_j70557722739343_2_alg».proof.Proof.RefRun
import proofs.«121349_j70557722739343_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its input unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.RefRun.run m ρ)

/-- From finite inputs that agree, both programs end at `tail (means x)`: the reference by its run, the kernel because
    its pooled array of finite images is the array of region means. -/
theorem algebraic : Cert.algebraic_KernelIdeal_ReferenceIdeal := by
  intro m ρ m' ρ' hpre hagree
  refine ⟨fun c => Cert.Tail.tail (Cert.Tail.means
    (m ((c.tc : Thread Cert.KernelIdeal.nD Cert.KernelIdeal.τ).loc Cert.KernelIdeal.main_arg0))), ?_, ?_⟩
  · refine (θ_run Cert.KernelIdeal.defs _ _).mono
      (fun _ h c => ⟨(h c).1.trans (congrArg Cert.Tail.tail ?_), (h c).2⟩) (Cert.KernelIdeal.Pool.run m ρ)
    exact Cert.KernelIdeal.Pool.poolOut_eq_means m c _ (Cert.Finite.real_of_pre _ (hpre c))
  · refine (θ_run Cert.ReferenceIdeal.defs _ _).mono
      (fun _ h c => ⟨(h c).1.trans ?_, (h c).2⟩) (Cert.ReferenceIdeal.RefRun.run m' ρ')
    rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
